-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibSoftmaxRow.lean ====
/-
  One row of a softmax over the extended reals, and the two laws that let the normalising factor move.

  For a row of scores `s` the row maximum is the fold of `max` from −∞, the numerator at `c` is
  `exp (s c − max)` and the denominator is the sum of the numerators.  When every score is a real number
  (and the row is not empty) the maximum is attained, so it is real, every numerator is a positive real
  and so is the denominator.  Division by a nonzero real `L` is multiplication by `1 / L` on every
  extended real, hence

    numerator · (1 / denominator) = numerator / denominator,

  and, because multiplication by a nonnegative real distributes over every sum of extended reals,

    (∑ c, numerator c · v c) · (1 / denominator) = ∑ c, (numerator c / denominator) · v c

  for arbitrary extended reals `v c`.  Neither law holds for a zero denominator (there `1 / 0 = +∞` while
  `0 / 0` is not `0 · ∞`), which is why the scores are assumed real.
-/
import Idealize.ShloMosaic.PureOps.Ideal.Laws

noncomputable section

namespace Cert.Softmax

open Idealize.ShloMosaic

variable {ι : Type} [Fintype ι]

/-- A finite sum of reals, read in the extended reals, is the sum of the summands read there. -/
theorem coe_sum (t : Finset ι) (f : ι → ℝ) : ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

/-- Multiplication by a nonnegative real distributes over a finite sum of extended reals. -/
theorem sum_mul_coe (t : Finset ι) (f : ι → EReal) {x : ℝ} (hx : 0 ≤ x) :
    (∑ c ∈ t, f c) * (x : EReal) = ∑ c ∈ t, f c * (x : EReal) := by
  classical
  induction t using Finset.induction_on with
  | empty => simp
  | insert a t ha ih =>
    rw [Finset.sum_insert ha, Finset.sum_insert ha,
      EReal.right_distrib_of_nonneg_of_ne_top (by exact_mod_cast hx) (EReal.coe_ne_top x), ih]

/-- The largest score of the row, starting from −∞. -/
def rowMax (s : ι → EReal) : EReal := Finset.univ.fold max ⊥ s

/-- The softmax numerator: the exponential of the score's distance below the row maximum. -/
def num (s : ι → EReal) (c : ι) : EReal := Ideal.exp (s c - rowMax s)

/-- The softmax denominator: the sum of the row's numerators. -/
def den (s : ι → EReal) : EReal := ∑ c, num s c

variable [Nonempty ι] {s : ι → EReal}

/-- A nonempty row of real scores attains its maximum, which is therefore real. -/
theorem rowMax_real (hs : ∀ c, ∃ r : ℝ, s c = r) : ∃ r : ℝ, rowMax s = r := by
  obtain ⟨c0, -, hc0⟩ := Finset.exists_max_image Finset.univ s Finset.univ_nonempty
  have h : rowMax s = s c0 :=
    le_antisymm ((Finset.fold_max_le _).2 ⟨bot_le, fun c hc => hc0 c hc⟩)
      ((Finset.le_fold_max _).2 (Or.inr ⟨c0, Finset.mem_univ _, le_rfl⟩))
  obtain ⟨r, hr⟩ := hs c0
  exact ⟨r, h.trans hr⟩

/-- Every numerator of a row of real scores is a positive real. -/
theorem num_real (hs : ∀ c, ∃ r : ℝ, s c = r) (c : ι) : ∃ r : ℝ, 0 < r ∧ num s c = r := by
  obtain ⟨a, ha⟩ := hs c
  obtain ⟨b, hb⟩ := rowMax_real hs
  refine ⟨Real.exp (a - b), Real.exp_pos _, ?_⟩
  unfold num
  rw [ha, hb, ← EReal.coe_sub]
  rfl

/-- The denominator of a nonempty row of real scores is a positive real. -/
theorem den_real (hs : ∀ c, ∃ r : ℝ, s c = r) : ∃ L : ℝ, 0 < L ∧ den s = L := by
  choose P hP using num_real hs
  refine ⟨∑ c, P c, Finset.sum_pos (fun c _ => (hP c).1) Finset.univ_nonempty, ?_⟩
  unfold den
  rw [coe_sum]
  exact Finset.sum_congr rfl fun c _ => (hP c).2

/-- A numerator times the reciprocal of the denominator is the numerator divided by the denominator. -/
theorem num_mul_inv_den (hs : ∀ c, ∃ r : ℝ, s c = r) (c : ι) :
    num s c * Ideal.div 1 (den s) = Ideal.div (num s c) (den s) := by
  obtain ⟨L, hL, hden⟩ := den_real hs
  rw [hden, Ideal.div_coe hL.ne', Ideal.div_coe hL.ne', one_mul]

/-- Normalising after the weighted sum is normalising each weight first: the reciprocal of the denominator,
    a nonnegative real, distributes over the sum. -/
theorem sum_mul_inv_den (hs : ∀ c, ∃ r : ℝ, s c = r) (v : ι → EReal) :
    (∑ c, num s c * v c) * Ideal.div 1 (den s) = ∑ c, Ideal.div (num s c) (den s) * v c := by
  obtain ⟨L, hL, hden⟩ := den_real hs
  rw [hden, Ideal.div_coe hL.ne', one_mul, sum_mul_coe _ _ (by positivity : (0 : ℝ) ≤ 1 / L)]
  refine Finset.sum_congr rfl fun c _ => ?_
  rw [Ideal.div_coe hL.ne', mul_right_comm]

end Cert.Softmax

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.Consts.lean ====
/-
  The float literals the two programs spell, as the extended reals their bit patterns denote.
-/
import Idealize.ShloMosaic.PureOps.Ideal

noncomputable section

namespace Cert.Consts

open Idealize.ShloMosaic

/-- `0.125` denotes the real one eighth. -/
theorem ofBits_eighth : Ideal.ofBits .f32 0x3E000000#32 = ((1 / 8 : ℝ) : EReal) := by
  simp [Ideal.ofBits, Ideal.ieee, -EReal.coe_mul]; norm_num

/-- `8.0` denotes the real eight. -/
theorem ofBits_eight : Ideal.ofBits .f32 0x41000000#32 = ((8 : ℝ) : EReal) := by
  simp [Ideal.ofBits, Ideal.ieee, -EReal.coe_mul]; norm_num

/-- `1.0` denotes one. -/
theorem ofBits_one : Ideal.ofBits .f32 0x3F800000#32 = 1 := by
  simp [Ideal.ofBits, Ideal.ieee, -EReal.coe_mul]; norm_num

/-- The negative-infinity pattern denotes −∞. -/
theorem ofBits_neg_inf : Ideal.ofBits .f32 0xFF800000#32 = ⊥ := by
  simp [Ideal.ofBits, Ideal.ieee]

/-- The positive-infinity pattern denotes +∞. -/
theorem ofBits_inf : Ideal.ofBits .f32 0x7F800000#32 = ⊤ := by
  simp [Ideal.ofBits, Ideal.ieee]

end Cert.Consts

end
-- ==== Proof.KernelBlock.lean ====
/-
  What the kernel body computes for one grid point, read index by index from the three blocks it loads: the
  query tile `P0` [1, 512, 64], the batch's keys `P1` and values `P2` [1, 2048, 64].

  For tile row `r` the block score against key row `c` is `(∑ d, P0[0,r,d] · P1[0,c,d]) · (1/8)`: the first matrix
  product contracts the feature axis of the query tile with the transposed keys, into a zero accumulator, and the
  product is scaled by the constant 0.125.  The row maximum from −∞, the exponentials of the differences and their
  row sums are the softmax numerators and denominator of that score row (LibSoftmaxRow.lean).  The attention tile holds
  `numerator · (1 / denominator)`; the output tile holds the second matrix product of the numerators with the
  values, contracted over the key axis, times `1 / denominator`.  Rounding to bf16 on the way into the matrix unit
  is the identity on extended reals, and the casts between [512, n] and [1, 512, n], the column cast [512] → [512, 1]
  and the broadcast of a column along a row only move indices.
-/
import proofs.«107630_j43327630082400_2_alg».proof.Proof.Gen.KernelIdeal.Skeleton
import proofs.«107630_j43327630082400_2_alg».proof.Proof.LibSoftmaxRow
import proofs.«107630_j43327630082400_2_alg».proof.Proof.LibColumnLayout
import proofs.«107630_j43327630082400_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.Softmax Cert.ColumnLayout

/-! ## The two row reductions over the key axis -/

/-- The row index with the key coordinate inserted is the pair of the two. -/
theorem lift_key (r : Fin 512) (c : Fin 2048) : reduces_S512x2048_S512.lift (ix1 r) c = ix2 r c :=
  funext fun a => Fin.ext (by match a with | ⟨0, _⟩ => rfl | ⟨1, _⟩ => rfl)

/-- The maximum over the key axis from the −∞ pattern is the row maximum. -/
theorem rowmax_apply (X : FVec Ideal S512x2048 .f32) (r : Fin 512) :
    multiReduction .maximumf [1] S512 X 0xFF800000#32 reduces_S512x2048_S512 (.inl rfl) rfl (ix1 r)
      = rowMax (fun c : Fin 2048 => X (ix2 r c)) := by
  refine (Ideal.multiReduction_maximumf_single X 0xFF800000#32 reduces_S512x2048_S512 (.inl rfl) rfl (ix1 r)).trans ?_
  have hrow : (X ∘ reduces_S512x2048_S512.lift (ix1 r)) = fun c : Fin 2048 => X (ix2 r c) :=
    funext fun c => congrArg X (lift_key r c)
  rw [hrow]
  show Finset.univ.fold max (Ideal.ofBits .f32 0xFF800000#32) (fun c : Fin 2048 => X (ix2 r c)) = _
  rw [Cert.Consts.ofBits_neg_inf]
  rfl

/-- The sum over the key axis into a zero accumulator is the row sum. -/
theorem rowsum_apply (X : FVec Ideal S512x2048 .f32) (r : Fin 512) :
    multiReduction .add [1] S512 X 0x00000000#32 reduces_S512x2048_S512 (.inl rfl) rfl (ix1 r)
      = ∑ c : Fin 2048, X (ix2 r c) :=
  (Ideal.multiReduction_add_single X 0x00000000#32 reduces_S512x2048_S512 (.inl rfl) rfl (ix1 r)).trans
    (Finset.sum_congr rfl fun c _ => congrArg X (lift_key r c))

/-- Subtracting the broadcast row maximum and exponentiating gives the softmax numerators of each row. -/
theorem expShift_apply (X : FVec Ideal S512x2048 .f32) (r : Fin 512) (c : Fin 2048) :
    exp (subf X (broadcastTo S512x2048 (shapeCast S512x1
      (multiReduction .maximumf [1] S512 X 0xFF800000#32 reduces_S512x2048_S512 (.inl rfl) rfl)
      shapeCasts_S512_S512x1) broadcasts_S512x1_S512x2048)) (ix2 r c)
      = num (fun c' : Fin 2048 => X (ix2 r c')) c := by
  show Ideal.exp (X (ix2 r c) - broadcastTo S512x2048 (shapeCast S512x1
      (multiReduction .maximumf [1] S512 X 0xFF800000#32 reduces_S512x2048_S512 (.inl rfl) rfl)
      shapeCasts_S512_S512x1) broadcasts_S512x1_S512x2048 (ix2 r c)) = _
  rw [broadcastTo_a1_ab_apply, shapeCast_a_a1_apply, rowmax_apply]
  rfl

/-- One over the row sums, as a column. -/
theorem recip_apply (Y : FVec Ideal S512x2048 .f32) (r : Fin 512) (u : Fin 1) :
    divf (broadcast S512x1 (Scalar.ofBits .f32 0x3F800000#32)) (shapeCast S512x1
      (multiReduction .add [1] S512 Y 0x00000000#32 reduces_S512x2048_S512 (.inl rfl) rfl)
      shapeCasts_S512_S512x1) (ix2 r u)
      = Ideal.div 1 (∑ c : Fin 2048, Y (ix2 r c)) := by
  show Ideal.div (Ideal.ofBits .f32 0x3F800000#32) (shapeCast S512x1
      (multiReduction .add [1] S512 Y 0x00000000#32 reduces_S512x2048_S512 (.inl rfl) rfl)
      shapeCasts_S512_S512x1 (ix2 r u)) = _
  rw [shapeCast_a_a1_apply, rowsum_apply, Cert.Consts.ofBits_one]

/-! ## The first matrix product: query tile against the keys -/

theorem qk_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

variable (P0 : Vec Ideal S1x512x64 .f32) (P1 P2 : Vec Ideal S1x2048x64 .f32)

/-- The product of the query tile with the transposed keys, at `(r, c)`: the dot product over the features. -/
theorem qk_apply (r : Fin 512) (c : Fin 2048) :
    matmul (F := Ideal) dot_S512x64_S64x2048_S512x2048_1_0_0_1_n_n none (truncf .bf16 (shapeCast S512x64 P0 shapeCasts_S1x512x64_S512x64) bitsLt_bf16_f32)
      (transpose S64x2048 [1, 0] (truncf .bf16 (shapeCast S2048x64 P1 shapeCasts_S1x2048x64_S2048x64) bitsLt_bf16_f32) transposes_S2048x64_p1_0_S64x2048)
      (constant S512x2048 .f32 0x00000000#32) (ix2 r c)
      = ∑ d : Fin 64, P0 (ix3 (0 : Fin 1) r d) * P1 (ix3 (0 : Fin 1) c d) := by
  refine (Ideal.matmul_constant_zero_apply dot_S512x64_S64x2048_S512x2048_1_0_0_1_n_n none _ _ (ix2 r c)).trans ?_
  rw [← Equiv.sum_comp (contrEquiv1 dot_S512x64_S64x2048_S512x2048_1_0_0_1_n_n 64 rfl rfl).symm]
  refine Finset.sum_congr rfl fun d _ => ?_
  have hk := contrEquiv1_symm_val dot_S512x64_S64x2048_S512x2048_1_0_0_1_n_n 64 rfl rfl d
  have el : dot_S512x64_S64x2048_S512x2048_1_0_0_1_n_n.lhsIdx (ix2 r c) ((contrEquiv1 dot_S512x64_S64x2048_S512x2048_1_0_0_1_n_n 64 rfl rfl).symm d) = ix2 r d := funext fun a => Fin.ext (by
    match a with
    | ⟨0, _⟩ => exact qk_lhs0 _ _
    | ⟨1, _⟩ => exact (qk_lhs1 _ _).trans hk)
  have er : dot_S512x64_S64x2048_S512x2048_1_0_0_1_n_n.rhsIdx (ix2 r c) ((contrEquiv1 dot_S512x64_S64x2048_S512x2048_1_0_0_1_n_n 64 rfl rfl).symm d) = ix2 d c := funext fun a => Fin.ext (by
    match a with
    | ⟨0, _⟩ => exact (qk_rhs0 _ _).trans hk
    | ⟨1, _⟩ => exact qk_rhs1 _ _)
  rw [el, er]
  show (shapeCast S512x64 P0 shapeCasts_S1x512x64_S512x64 (ix2 r d) : EReal)
    * (transpose S64x2048 [1, 0] (truncf (F := Ideal) .bf16 (shapeCast S2048x64 P1 shapeCasts_S1x2048x64_S2048x64) bitsLt_bf16_f32) transposes_S2048x64_p1_0_S64x2048 (ix2 d c) : EReal) = _
  rw [shapeCast_1ab_ab_apply, transpose_ix2_apply]
  show _ * (shapeCast S2048x64 P1 shapeCasts_S1x2048x64_S2048x64 (ix2 c d) : EReal) = _
  rw [shapeCast_1ab_ab_apply]

/-- The block's score rows. -/
def blockScore (r : Fin 512) : Fin 2048 → EReal :=
  fun c => (∑ d : Fin 64, P0 (ix3 (0 : Fin 1) r d) * P1 (ix3 (0 : Fin 1) c d)) * ((1 / 8 : ℝ) : EReal)

/-- The scaled scores as the body spells them: the product times the splat of 0.125. -/
def scaled : FVec Ideal S512x2048 .f32 :=
  mulf (matmul (F := Ideal) dot_S512x64_S64x2048_S512x2048_1_0_0_1_n_n none (truncf .bf16 (shapeCast S512x64 P0 shapeCasts_S1x512x64_S512x64) bitsLt_bf16_f32)
      (transpose S64x2048 [1, 0] (truncf .bf16 (shapeCast S2048x64 P1 shapeCasts_S1x2048x64_S2048x64) bitsLt_bf16_f32) transposes_S2048x64_p1_0_S64x2048)
      (constant S512x2048 .f32 0x00000000#32))
    (broadcast S512x2048 (Scalar.ofBits .f32 0x3E000000#32))

theorem scaled_apply (r : Fin 512) (c : Fin 2048) : scaled P0 P1 (ix2 r c) = blockScore P0 P1 r c := by
  show matmul (F := Ideal) dot_S512x64_S64x2048_S512x2048_1_0_0_1_n_n none (truncf .bf16 (shapeCast S512x64 P0 shapeCasts_S1x512x64_S512x64) bitsLt_bf16_f32)
      (transpose S64x2048 [1, 0] (truncf .bf16 (shapeCast S2048x64 P1 shapeCasts_S1x2048x64_S2048x64) bitsLt_bf16_f32) transposes_S2048x64_p1_0_S64x2048)
      (constant S512x2048 .f32 0x00000000#32) (ix2 r c) * Ideal.ofBits .f32 0x3E000000#32 = _
  rw [qk_apply, Cert.Consts.ofBits_eighth]
  rfl

/-! ## The payloads -/

/-- The numerators' payload is the exponential shift of the scaled scores. -/
theorem pay1_eq : k0_pay1 P0 P1 = exp (subf (scaled P0 P1) (broadcastTo S512x2048 (shapeCast S512x1
      (multiReduction .maximumf [1] S512 (scaled P0 P1) 0xFF800000#32 reduces_S512x2048_S512 (.inl rfl) rfl)
      shapeCasts_S512_S512x1) broadcasts_S512x1_S512x2048)) := rfl

/-- THE NUMERATORS: the payload at `(r, c)` is the softmax numerator of the block's score row `r` at `c`. -/
theorem pay1_apply (r : Fin 512) (c : Fin 2048) : k0_pay1 P0 P1 (ix2 r c) = num (blockScore P0 P1 r) c := by
  rw [pay1_eq, expShift_apply]
  exact congrArg (fun s => num s c) (funext fun c' => scaled_apply P0 P1 r c')

/-- The reciprocal column's payload is one over the row sums of the numerators. -/
theorem pay2_eq : k0_pay2 P0 P1 = divf (broadcast S512x1 (Scalar.ofBits .f32 0x3F800000#32)) (shapeCast S512x1
      (multiReduction .add [1] S512 (k0_pay1 P0 P1) 0x00000000#32 reduces_S512x2048_S512 (.inl rfl) rfl)
      shapeCasts_S512_S512x1) := rfl

/-- THE RECIPROCAL of the denominator of row `r`. -/
theorem pay2_apply (r : Fin 512) (u : Fin 1) : k0_pay2 P0 P1 (ix2 r u) = Ideal.div 1 (den (blockScore P0 P1 r)) := by
  rw [pay2_eq, recip_apply]
  exact congrArg (Ideal.div 1) (Finset.sum_congr rfl fun c _ => pay1_apply P0 P1 r c)

/-! ## The second matrix product: numerators against the values -/

theorem pv_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The product of a [512, 2048] array with the values, at `(r, d)`: the sum over the key axis. -/
theorem pv_apply (Y : FVec Ideal S512x2048 .f32) (r : Fin 512) (d : Fin 64) :
    matmul (F := Ideal) dot_S512x2048_S2048x64_S512x64_1_0_0_1_n_n none (truncf .bf16 Y bitsLt_bf16_f32)
      (truncf .bf16 (shapeCast S2048x64 P2 shapeCasts_S1x2048x64_S2048x64) bitsLt_bf16_f32)
      (constant S512x64 .f32 0x00000000#32) (ix2 r d)
      = ∑ c : Fin 2048, Y (ix2 r c) * P2 (ix3 (0 : Fin 1) c d) := by
  refine (Ideal.matmul_constant_zero_apply dot_S512x2048_S2048x64_S512x64_1_0_0_1_n_n none _ _ (ix2 r d)).trans ?_
  rw [← Equiv.sum_comp (contrEquiv1 dot_S512x2048_S2048x64_S512x64_1_0_0_1_n_n 2048 rfl rfl).symm]
  refine Finset.sum_congr rfl fun c _ => ?_
  have hk := contrEquiv1_symm_val dot_S512x2048_S2048x64_S512x64_1_0_0_1_n_n 2048 rfl rfl c
  have el : dot_S512x2048_S2048x64_S512x64_1_0_0_1_n_n.lhsIdx (ix2 r d) ((contrEquiv1 dot_S512x2048_S2048x64_S512x64_1_0_0_1_n_n 2048 rfl rfl).symm c) = ix2 r c := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 r d) ((contrEquiv1 dot_S512x2048_S2048x64_S512x64_1_0_0_1_n_n 2048 rfl rfl).symm c) = ix2 c d := funext fun a => Fin.ext (by
    match a with
    | ⟨0, _⟩ => exact (pv_rhs0 _ _).trans hk
    | ⟨1, _⟩ => exact pv_rhs1 _ _)
  rw [el, er]
  show (Y (ix2 r c) : EReal) * (shapeCast S2048x64 P2 shapeCasts_S1x2048x64_S2048x64 (ix2 c d) : EReal) = _
  rw [shapeCast_1ab_ab_apply]

/-- An output tile `(Y · values) · Z` with the column `Z` broadcast along the features, at `(0, r, d)`. -/
theorem outTile_apply (Y : FVec Ideal S512x2048 .f32) (Z : FVec Ideal S512x1 .f32) (u : Fin 1) (r : Fin 512) (d : Fin 64) :
    shapeCast S1x512x64 (mulf (matmul (F := Ideal) dot_S512x2048_S2048x64_S512x64_1_0_0_1_n_n none (truncf .bf16 Y bitsLt_bf16_f32)
        (truncf .bf16 (shapeCast S2048x64 P2 shapeCasts_S1x2048x64_S2048x64) bitsLt_bf16_f32)
        (constant S512x64 .f32 0x00000000#32))
      (broadcastTo S512x64 Z broadcasts_S512x1_S512x64)) shapeCasts_S512x64_S1x512x64 (ix3 u r d)
      = (∑ c : Fin 2048, Y (ix2 r c) * P2 (ix3 (0 : Fin 1) c d)) * Z (ix2 r (0 : Fin 1)) := by
  rw [shapeCast_ab_1ab_apply]
  show matmul (F := Ideal) dot_S512x2048_S2048x64_S512x64_1_0_0_1_n_n none (truncf .bf16 Y bitsLt_bf16_f32)
        (truncf .bf16 (shapeCast S2048x64 P2 shapeCasts_S1x2048x64_S2048x64) bitsLt_bf16_f32)
        (constant S512x64 .f32 0x00000000#32) (ix2 r d) * broadcastTo S512x64 Z broadcasts_S512x1_S512x64 (ix2 r d) = _
  rw [pv_apply, broadcastTo_a1_ab_apply]

/-- The output store's payload is that tile of the numerators and the reciprocal column. -/
theorem pay3_eq : k0_pay3 P0 P1 P2 = shapeCast S1x512x64 (mulf (matmul (F := Ideal) dot_S512x2048_S2048x64_S512x64_1_0_0_1_n_n none (truncf .bf16 (k0_pay1 P0 P1) bitsLt_bf16_f32)
        (truncf .bf16 (shapeCast S2048x64 P2 shapeCasts_S1x2048x64_S2048x64) bitsLt_bf16_f32)
        (constant S512x64 .f32 0x00000000#32))
      (broadcastTo S512x64 (k0_pay2 P0 P1) broadcasts_S512x1_S512x64)) shapeCasts_S512x64_S1x512x64 := rfl

/-- THE OUTPUT TILE at `(0, r, d)`: the numerators of row `r` against column `d` of the values, summed over the
    key axis, times the reciprocal of the row's denominator. -/
theorem pay3_apply (u : Fin 1) (r : Fin 512) (d : Fin 64) :
    k0_pay3 P0 P1 P2 (ix3 u r d)
      = (∑ c : Fin 2048, num (blockScore P0 P1 r) c * P2 (ix3 (0 : Fin 1) c d)) * Ideal.div 1 (den (blockScore P0 P1 r)) := by
  rw [pay3_eq, outTile_apply, pay2_apply]
  exact congrArg (· * _) (Finset.sum_congr rfl fun c _ => by rw [pay1_apply])

/-- The attention store's payload: the numerators times the reciprocal column broadcast along the keys. -/
theorem pay4_eq : k0_pay4 P0 P1 = shapeCast S1x512x2048 (mulf (k0_pay1 P0 P1)
      (broadcastTo S512x2048 (k0_pay2 P0 P1) broadcasts_S512x1_S512x2048)) shapeCasts_S512x2048_S1x512x2048 := rfl

/-- THE ATTENTION TILE at `(0, r, c)`: the numerator times the reciprocal of the row's denominator. -/
theorem pay4_apply (u : Fin 1) (r : Fin 512) (c : Fin 2048) :
    k0_pay4 P0 P1 (ix3 u r c) = num (blockScore P0 P1 r) c * Ideal.div 1 (den (blockScore P0 P1 r)) := by
  rw [pay4_eq, shapeCast_ab_1ab_apply]
  show k0_pay1 P0 P1 (ix2 r c) * broadcastTo S512x2048 (k0_pay2 P0 P1) broadcasts_S512x1_S512x2048 (ix2 r c) = _
  rw [broadcastTo_a1_ab_apply, pay1_apply, pay2_apply]

end Cert.KernelIdeal.Block

end
-- ==== Proof.Spec.lean ====
/-
  Scaled dot-product attention over [16, 2048, 64] arrays, index by index, in the two arrangements the
  two programs compute.

  For batch `b` and query row `r` the score against key row `c` is `(∑ d, q[b,r,d] · k[b,c,d]) · (1/8)`.
  With the softmax numerators and denominator of that score row (LibSoftmaxRow.lean):

    * the attention weight is  numerator c / denominator        (normalise each weight), or
                                numerator c · (1 / denominator)  (multiply by the reciprocal);
    * the output at column `d` is  ∑ c, (numerator c / denominator) · v[b,c,d]      (weights first), or
                                    (∑ c, numerator c · v[b,c,d]) · (1 / denominator)  (normalise last).

  When every entry of `q` and `k` is a real number every score is real, so the denominator is a positive
  real and the two arrangements agree (the two row laws of LibSoftmaxRow.lean); `v` may hold any extended reals.
-/
import proofs.«107630_j43327630082400_2_alg».proof.Proof.LibSoftmaxRow
import Idealize.ShloMosaic.Lib.ValueIdx

noncomputable section

namespace Cert.Attn

open Idealize.ShloMosaic Idealize.ShloMosaic.ValueIdx Cert.Softmax

/-- The shape of `q`, `k`, `v` and of the output. -/
abbrev QKV : Shape := ⟨3, ![16, 2048, 64]⟩
/-- The shape of the attention weights. -/
abbrev AW : Shape := ⟨3, ![16, 2048, 2048]⟩

/-- The scaled score row of query row `r` of batch `b`: against each key row, the dot product over the 64
    features, times one eighth. -/
def score (q k : QKV.Idx → EReal) (b : Fin 16) (r : Fin 2048) : Fin 2048 → EReal :=
  fun c => (∑ d : Fin 64, q (ix3 b r d) * k (ix3 b c d)) * ((1 / 8 : ℝ) : EReal)

/-- The attention weight as numerator times the reciprocal of the denominator. -/
def weightMulInv (q k : QKV.Idx → EReal) (b : Fin 16) (r c : Fin 2048) : EReal :=
  num (score q k b r) c * Ideal.div 1 (den (score q k b r))

/-- The attention weight as numerator divided by the denominator. -/
def weightDiv (q k : QKV.Idx → EReal) (b : Fin 16) (r c : Fin 2048) : EReal :=
  Ideal.div (num (score q k b r) c) (den (score q k b r))

/-- The output entry, the unnormalised weighted sum of `v`'s rows normalised last. -/
def outNormLast (q k v : QKV.Idx → EReal) (b : Fin 16) (r : Fin 2048) (d : Fin 64) : EReal :=
  (∑ c : Fin 2048, num (score q k b r) c * v (ix3 b c d)) * Ideal.div 1 (den (score q k b r))

/-- The output entry, the sum of `v`'s rows weighted by the normalised weights. -/
def outWeightsFirst (q k v : QKV.Idx → EReal) (b : Fin 16) (r : Fin 2048) (d : Fin 64) : EReal :=
  ∑ c : Fin 2048, Ideal.div (num (score q k b r) c) (den (score q k b r)) * v (ix3 b c d)

/-- The attention weights as one array, reciprocal arrangement. -/
def attnMulInv (q k : QKV.Idx → EReal) : AW.Idx → EReal :=
  fun i => weightMulInv q k ⟨(i 0).val, (i 0).isLt⟩ ⟨(i 1).val, (i 1).isLt⟩ ⟨(i 2).val, (i 2).isLt⟩

/-- The attention weights as one array, quotient arrangement. -/
def attnDiv (q k : QKV.Idx → EReal) : AW.Idx → EReal :=
  fun i => weightDiv q k ⟨(i 0).val, (i 0).isLt⟩ ⟨(i 1).val, (i 1).isLt⟩ ⟨(i 2).val, (i 2).isLt⟩

/-- The output as one array, normalised last. -/
def outputNormLast (q k v : QKV.Idx → EReal) : QKV.Idx → EReal :=
  fun i => outNormLast q k v ⟨(i 0).val, (i 0).isLt⟩ ⟨(i 1).val, (i 1).isLt⟩ ⟨(i 2).val, (i 2).isLt⟩

/-- The output as one array, weights first. -/
def outputWeightsFirst (q k v : QKV.Idx → EReal) : QKV.Idx → EReal :=
  fun i => outWeightsFirst q k v ⟨(i 0).val, (i 0).isLt⟩ ⟨(i 1).val, (i 1).isLt⟩ ⟨(i 2).val, (i 2).isLt⟩

variable {q k : QKV.Idx → EReal}

/-- Real queries and keys give real scores: a finite sum of products of reals, times a real. -/
theorem score_real (hq : ∀ i, ∃ x : ℝ, q i = x) (hk : ∀ i, ∃ x : ℝ, k i = x) (b : Fin 16) (r : Fin 2048) :
    ∀ c, ∃ x : ℝ, score q k b r c = x := by
  choose Q hQ using hq
  choose K hK using hk
  intro c
  refine ⟨(∑ d : Fin 64, Q (ix3 b r d) * K (ix3 b c d)) * (1 / 8), ?_⟩
  unfold score
  rw [EReal.coe_mul, coe_sum]
  refine congrArg (· * _) (Finset.sum_congr rfl fun d _ => ?_)
  rw [hQ, hK, EReal.coe_mul]

/-- On real queries and keys the two arrangements of the attention weights are one array. -/
theorem attnMulInv_eq_attnDiv (hq : ∀ i, ∃ x : ℝ, q i = x) (hk : ∀ i, ∃ x : ℝ, k i = x) :
    attnMulInv q k = attnDiv q k :=
  funext fun _ => num_mul_inv_den (score_real hq hk _ _) _

/-- On real queries and keys the two arrangements of the output are one array, whatever `v` holds. -/
theorem outputNormLast_eq_outputWeightsFirst (hq : ∀ i, ∃ x : ℝ, q i = x) (hk : ∀ i, ∃ x : ℝ, k i = x)
    (v : QKV.Idx → EReal) : outputNormLast q k v = outputWeightsFirst q k v :=
  funext fun _ => sum_mul_inv_den (score_real hq hk _ _) _

end Cert.Attn

end
-- ==== Proof.KernelTile.lean ====
/-
  A grid point's tiles placed in the whole arrays.

  Suppose the three loaded blocks are the arrays `q`, `k`, `v` read through index maps `e0`, `e1`, `e2`: the query
  tile of batch `bb` starting at row `ii · 512`, and the whole key and value matrices of the same batch.  Then the
  block's score row `r` is the arrays' score row `ii · 512 + r` of batch `bb`, so at an array index `j` lying over
  the tile index `y` the output payload is the normalise-last output of Spec.lean and the attention payload its
  reciprocal-arrangement weight.
-/
import proofs.«107630_j43327630082400_2_alg».proof.Proof.KernelBlock
import proofs.«107630_j43327630082400_2_alg».proof.Proof.Spec

noncomputable section

namespace Cert.KernelIdeal.Tile

open Cert.KernelIdeal Cert.KernelIdeal.Gen Cert.KernelIdeal.Block Idealize.ShloMosaic
open Idealize.ShloMosaic.ValueIdx Cert.Softmax Cert.Attn

variable (q k v : QKV.Idx → EReal) (P0 : Vec Ideal S1x512x64 .f32) (P1 P2 : Vec Ideal S1x2048x64 .f32)
  (e0 : S1x512x64.Idx → QKV.Idx) (e1 e2 : S1x2048x64.Idx → QKV.Idx) (bb ii : ℕ)

/-- The block's score row `r` is the arrays' score row `ii · 512 + r` of batch `bb`. -/
theorem blockScore_eq (hP0 : ∀ y, P0 y = q (e0 y)) (hP1 : ∀ y, P1 y = k (e1 y))
    (he0 : ∀ y, (e0 y 0).val = bb ∧ (e0 y 1).val = ii * 512 + (y 1).val ∧ (e0 y 2).val = (y 2).val)
    (he1 : ∀ y, (e1 y 0).val = bb ∧ (e1 y 1).val = (y 1).val ∧ (e1 y 2).val = (y 2).val)
    (r : Fin 512) (B : Fin 16) (R : Fin 2048) (hB : B.val = bb) (hR : R.val = ii * 512 + r.val) :
    blockScore P0 P1 r = score q k B R := by
  funext c
  unfold blockScore score
  refine congrArg (· * _) (Finset.sum_congr rfl fun d _ => ?_)
  have h0 : e0 (ix3 (0 : Fin 1) r d) = ix3 B R d := funext fun a => Fin.ext (by
    obtain ⟨a0, a1, a2⟩ := he0 (ix3 (0 : Fin 1) r d)
    match a with
    | ⟨0, _⟩ => exact a0.trans hB.symm
    | ⟨1, _⟩ => exact a1.trans hR.symm
    | ⟨2, _⟩ => exact a2)
  have h1 : e1 (ix3 (0 : Fin 1) c d) = ix3 B c d := funext fun a => Fin.ext (by
    obtain ⟨a0, a1, a2⟩ := he1 (ix3 (0 : Fin 1) c d)
    match a with
    | ⟨0, _⟩ => exact a0.trans hB.symm
    | ⟨1, _⟩ => exact a1
    | ⟨2, _⟩ => exact a2)
  rw [hP0, hP1, h0, h1]

/-- THE OUTPUT TILE is the normalise-last output at the array index over it. -/
theorem out_tile (hP0 : ∀ y, P0 y = q (e0 y)) (hP1 : ∀ y, P1 y = k (e1 y)) (hP2 : ∀ y, P2 y = v (e2 y))
    (he0 : ∀ y, (e0 y 0).val = bb ∧ (e0 y 1).val = ii * 512 + (y 1).val ∧ (e0 y 2).val = (y 2).val)
    (he1 : ∀ y, (e1 y 0).val = bb ∧ (e1 y 1).val = (y 1).val ∧ (e1 y 2).val = (y 2).val)
    (he2 : ∀ y, (e2 y 0).val = bb ∧ (e2 y 1).val = (y 1).val ∧ (e2 y 2).val = (y 2).val)
    (y : S1x512x64.Idx) (j : QKV.Idx)
    (hj : (j 0).val = bb ∧ (j 1).val = ii * 512 + (y 1).val ∧ (j 2).val = (y 2).val) :
    k0_pay3 P0 P1 P2 y = outputNormLast q k v j := by
  obtain ⟨u, r, d, rfl⟩ : ∃ (u : Fin 1) (r : Fin 512) (d : Fin 64), y = ix3 u r d := ⟨y 0, y 1, y 2, eq_ix3 y⟩
  obtain ⟨j0, j1, j2⟩ := hj
  rw [pay3_apply]
  unfold outputNormLast outNormLast
  rw [blockScore_eq q k P0 P1 e0 e1 bb ii hP0 hP1 he0 he1 r ⟨(j 0).val, (j 0).isLt⟩ ⟨(j 1).val, (j 1).isLt⟩ j0 j1]
  refine congrArg (· * _) (Finset.sum_congr rfl fun c _ => ?_)
  have h2 : e2 (ix3 (0 : Fin 1) c d) = ix3 (⟨(j 0).val, (j 0).isLt⟩ : Fin 16) c (⟨(j 2).val, (j 2).isLt⟩ : Fin 64) :=
    funext fun a => Fin.ext (by
      obtain ⟨a0, a1, a2⟩ := he2 (ix3 (0 : Fin 1) c d)
      match a with
      | ⟨0, _⟩ => exact a0.trans j0.symm
      | ⟨1, _⟩ => exact a1
      | ⟨2, _⟩ => exact a2.trans j2.symm)
  rw [hP2, h2]

/-- THE ATTENTION TILE is the reciprocal-arrangement weight at the array index over it. -/
theorem attn_tile (hP0 : ∀ y, P0 y = q (e0 y)) (hP1 : ∀ y, P1 y = k (e1 y))
    (he0 : ∀ y, (e0 y 0).val = bb ∧ (e0 y 1).val = ii * 512 + (y 1).val ∧ (e0 y 2).val = (y 2).val)
    (he1 : ∀ y, (e1 y 0).val = bb ∧ (e1 y 1).val = (y 1).val ∧ (e1 y 2).val = (y 2).val)
    (y : S1x512x2048.Idx) (j : AW.Idx)
    (hj : (j 0).val = bb ∧ (j 1).val = ii * 512 + (y 1).val ∧ (j 2).val = (y 2).val) :
    k0_pay4 P0 P1 y = attnMulInv q k j := by
  obtain ⟨u, r, c, rfl⟩ : ∃ (u : Fin 1) (r : Fin 512) (c : Fin 2048), y = ix3 u r c := ⟨y 0, y 1, y 2, eq_ix3 y⟩
  obtain ⟨j0, j1, j2⟩ := hj
  rw [pay4_apply]
  unfold attnMulInv weightMulInv
  rw [blockScore_eq q k P0 P1 e0 e1 bb ii hP0 hP1 he0 he1 r ⟨(j 0).val, (j 0).isLt⟩ ⟨(j 1).val, (j 1).isLt⟩ j0 j1]
  have hc : c = (⟨(j 2).val, (j 2).isLt⟩ : Fin 2048) := Fin.ext j2.symm
  rw [← hc]

end Cert.KernelIdeal.Tile

end
-- ==== Proof.KernelArrays.lean ====
/-
  The kernel's two output arrays after the run, each as one function of the argument arrays.

  The grid is 16 batches by 4 query tiles.  At point `t`, with `(b, i)` the block index of the output window, the
  query window's block is rows `i · 512 …` of batch `b`, the key and value windows' blocks are the whole matrices of
  batch `b`, and the two output windows' blocks are tile `(b, i)` of their arrays (the relations between the index maps
  are decided once over the 64 points).  A block's element sits in its array at block index × block size + its
  coordinate, so what point `t` writes back is tile `(b, i)` of the normalise-last output and of the
  reciprocal-arrangement weights (KernelTile.lean); every array index lies in the tile `(batch, row / 512)`, so the
  tiles cover both arrays and the arrays end holding those two functions.
-/
import proofs.«107630_j43327630082400_2_alg».proof.Proof.Gen.KernelIdeal.Value
import proofs.«107630_j43327630082400_2_alg».proof.Proof.KernelTile

set_option maxRecDepth 16384

noncomputable section

namespace Cert.KernelIdeal.Arrays

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The printed index maps, decided over the grid: every window's batch index is the output's, the query and
    attention windows move with the output's tile index, and every other block index is zero. -/
theorem idx_facts : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_4.index t (0 : Fin 3) = win0_3.index t (0 : Fin 3) ∧ win0_4.index t (1 : Fin 3) = win0_3.index t (1 : Fin 3) ∧ win0_4.index t (2 : Fin 3) = 0
    ∧ win0_3.index t (2 : Fin 3) = 0 :=
  (by decide +kernel : ∀ t : Fin grid0.N, _)

/-- Every tile `(b, i)` is some point's. -/
theorem idx_onto : ∀ (b : Fin 16) (i : Fin 4), ∃ t : Fin cfg0.N, win0_3.index t = ![b.val, i.val, 0] :=
  (by decide +kernel : ∀ (b : Fin 16) (i : Fin 4), ∃ t : Fin grid0.N, win0_3.index t = ![b.val, i.val, 0])

/-! ## Where a block's element sits in its array -/

theorem emb_q (t : Fin cfg0.N) (y : S1x512x64.Idx) :
    ((((cfg0.win 0).blk t).view.emb y) 0).val = win0_3.index t (0 : Fin 3)
    ∧ ((((cfg0.win 0).blk t).view.emb y) 1).val = win0_3.index t (1 : Fin 3) * 512 + (y 1).val
    ∧ ((((cfg0.win 0).blk t).view.emb y) 2).val = (y 2).val := by
  obtain ⟨a0, a1, a2, -⟩ := idx_facts t
  have h0 : (y 0).val < 1 := (y 0).isLt
  refine ⟨?_, ?_, ?_⟩
  · show win0_0.index t (0 : Fin 3) * 1 + 1 * (y 0).val = win0_3.index t (0 : Fin 3); omega
  · show win0_0.index t (1 : Fin 3) * 512 + 1 * (y 1).val = win0_3.index t (1 : Fin 3) * 512 + (y 1).val; omega
  · show win0_0.index t (2 : Fin 3) * 64 + 1 * (y 2).val = (y 2).val; omega

theorem emb_k (t : Fin cfg0.N) (y : S1x2048x64.Idx) :
    ((((cfg0.win 1).blk t).view.emb y) 0).val = win0_3.index t (0 : Fin 3)
    ∧ ((((cfg0.win 1).blk t).view.emb y) 1).val = (y 1).val
    ∧ ((((cfg0.win 1).blk t).view.emb y) 2).val = (y 2).val := by
  obtain ⟨-, -, -, b0, b1, b2, -⟩ := idx_facts t
  have h0 : (y 0).val < 1 := (y 0).isLt
  refine ⟨?_, ?_, ?_⟩
  · show win0_1.index t (0 : Fin 3) * 1 + 1 * (y 0).val = win0_3.index t (0 : Fin 3); omega
  · show win0_1.index t (1 : Fin 3) * 2048 + 1 * (y 1).val = (y 1).val; omega
  · show win0_1.index t (2 : Fin 3) * 64 + 1 * (y 2).val = (y 2).val; omega

theorem emb_v (t : Fin cfg0.N) (y : S1x2048x64.Idx) :
    ((((cfg0.win 2).blk t).view.emb y) 0).val = win0_3.index t (0 : Fin 3)
    ∧ ((((cfg0.win 2).blk t).view.emb y) 1).val = (y 1).val
    ∧ ((((cfg0.win 2).blk t).view.emb y) 2).val = (y 2).val := by
  obtain ⟨-, -, -, -, -, -, c0, c1, c2, -⟩ := idx_facts t
  have h0 : (y 0).val < 1 := (y 0).isLt
  refine ⟨?_, ?_, ?_⟩
  · show win0_2.index t (0 : Fin 3) * 1 + 1 * (y 0).val = win0_3.index t (0 : Fin 3); omega
  · show win0_2.index t (1 : Fin 3) * 2048 + 1 * (y 1).val = (y 1).val; omega
  · show win0_2.index t (2 : Fin 3) * 64 + 1 * (y 2).val = (y 2).val; omega

theorem emb_out (t : Fin cfg0.N) (y : S1x512x64.Idx) :
    ((((cfg0.win 3).blk t).view.emb y) 0).val = win0_3.index t (0 : Fin 3)
    ∧ ((((cfg0.win 3).blk t).view.emb y) 1).val = win0_3.index t (1 : Fin 3) * 512 + (y 1).val
    ∧ ((((cfg0.win 3).blk t).view.emb y) 2).val = (y 2).val := by
  obtain ⟨-, -, -, -, -, -, -, -, -, -, -, -, z⟩ := idx_facts t
  have h0 : (y 0).val < 1 := (y 0).isLt
  refine ⟨?_, ?_, ?_⟩
  · show win0_3.index t (0 : Fin 3) * 1 + 1 * (y 0).val = win0_3.index t (0 : Fin 3); omega
  · show win0_3.index t (1 : Fin 3) * 512 + 1 * (y 1).val = win0_3.index t (1 : Fin 3) * 512 + (y 1).val; omega
  · show win0_3.index t (2 : Fin 3) * 64 + 1 * (y 2).val = (y 2).val; omega

theorem emb_attn (t : Fin cfg0.N) (y : S1x512x2048.Idx) :
    ((((cfg0.win 4).blk t).view.emb y) 0).val = win0_3.index t (0 : Fin 3)
    ∧ ((((cfg0.win 4).blk t).view.emb y) 1).val = win0_3.index t (1 : Fin 3) * 512 + (y 1).val
    ∧ ((((cfg0.win 4).blk t).view.emb y) 2).val = (y 2).val := by
  obtain ⟨-, -, -, -, -, -, -, -, -, d0, d1, d2, -⟩ := idx_facts t
  have h0 : (y 0).val < 1 := (y 0).isLt
  refine ⟨?_, ?_, ?_⟩
  · show win0_4.index t (0 : Fin 3) * 1 + 1 * (y 0).val = win0_3.index t (0 : Fin 3); omega
  · show win0_4.index t (1 : Fin 3) * 512 + 1 * (y 1).val = win0_3.index t (1 : Fin 3) * 512 + (y 1).val; omega
  · show win0_4.index t (2 : Fin 3) * 2048 + 1 * (y 2).val = (y 2).val; omega

/-! ## What a point writes back -/

/-- The query window's block at a point, read off the query array. -/
theorem read_q (c : Dev nD) (t : Fin cfg0.N) (y : S1x512x64.Idx) :
    iblk m c 0 t y = V m c main_arg0 (((cfg0.win 0).blk t).view.emb y) := rfl
/-- The key window's block at a point, read off the key array. -/
theorem read_k (c : Dev nD) (t : Fin cfg0.N) (y : S1x2048x64.Idx) :
    iblk m c 1 t y = V m c main_arg1 (((cfg0.win 1).blk t).view.emb y) := rfl
/-- The value window's block at a point, read off the value array. -/
theorem read_v (c : Dev nD) (t : Fin cfg0.N) (y : S1x2048x64.Idx) :
    iblk m c 2 t y = V m c main_arg2 (((cfg0.win 2).blk t).view.emb y) := rfl

/-- WHAT POINT `t` WRITES BACK to the output array is its tile of the normalise-last output. -/
theorem flushed_out (c : Dev nD) (t : Fin cfg0.N) :
    (dats m 0 c).flushed 3 t = ((cfg0.win 3).blk t).view.read (Elt Ideal)
      (outputNormLast (V m c main_arg0) (V m c main_arg1) (V m c main_arg2)) := by
  rw [Value.flushed3]
  unfold out0_3
  rw [View.canon_unit_zero origin]
  simp only [View.ld_unit_zero (S := S1x512x64) origin, View.ld_unit_zero (S := S1x2048x64) origin]
  funext j
  show k0_pay3 (iblk m c 0 t) (iblk m c 1 t) (iblk m c 2 t) j
    = outputNormLast (V m c main_arg0) (V m c main_arg1) (V m c main_arg2) (((cfg0.win 3).blk t).view.emb j)
  exact Tile.out_tile (V m c main_arg0) (V m c main_arg1) (V m c main_arg2) (iblk m c 0 t) (iblk m c 1 t) (iblk m c 2 t)
    ((cfg0.win 0).blk t).view.emb ((cfg0.win 1).blk t).view.emb ((cfg0.win 2).blk t).view.emb
    (win0_3.index t (0 : Fin 3)) (win0_3.index t (1 : Fin 3))
    (read_q m c t) (read_k m c t) (read_v m c t) (emb_q t) (emb_k t) (emb_v t)
    j (((cfg0.win 3).blk t).view.emb j) (emb_out t j)

/-- WHAT POINT `t` WRITES BACK to the attention array is its tile of the reciprocal-arrangement weights. -/
theorem flushed_attn (c : Dev nD) (t : Fin cfg0.N) :
    (dats m 0 c).flushed 4 t = ((cfg0.win 4).blk t).view.read (Elt Ideal)
      (attnMulInv (V m c main_arg0) (V m c main_arg1)) := by
  rw [Value.flushed4]
  unfold out0_4
  rw [View.canon_unit_zero origin]
  simp only [View.ld_unit_zero (S := S1x512x64) origin, View.ld_unit_zero (S := S1x2048x64) origin]
  funext j
  show k0_pay4 (iblk m c 0 t) (iblk m c 1 t) j
    = attnMulInv (V m c main_arg0) (V m c main_arg1) (((cfg0.win 4).blk t).view.emb j)
  exact Tile.attn_tile (V m c main_arg0) (V m c main_arg1) (iblk m c 0 t) (iblk m c 1 t)
    ((cfg0.win 0).blk t).view.emb ((cfg0.win 1).blk t).view.emb
    (win0_3.index t (0 : Fin 3)) (win0_3.index t (1 : Fin 3))
    (read_q m c t) (read_k m c t) (emb_q t) (emb_k t)
    j (((cfg0.win 4).blk t).view.emb j) (emb_attn t j)

/-! ## The tiles cover the arrays -/

theorem mem_blk_out (t : Fin cfg0.N) (i : S16x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v0_0).slice (win0_3.rect t)).set ↔ _
  rw [View.set_slice_whole, Rect.mem_set_unit]
  exact Iff.rfl

theorem mem_blk_attn (t : Fin cfg0.N) (i : S16x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v0_1).slice (win0_4.rect t)).set ↔ _
  rw [View.set_slice_whole, Rect.mem_set_unit]
  exact Iff.rfl

/-- Every index of the output array is in the tile of its batch and of its row's 512-block. -/
theorem cover_out (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk_out]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- Every index of the attention array is in the tile of its batch and of its row's 512-block. -/
theorem cover_attn (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  obtain ⟨-, -, -, -, -, -, -, -, -, d0, d1, d2, -⟩ := idx_facts t
  have q0 : win0_3.index t (0 : Fin 3) = (i 0).val := congrFun ht 0
  have q1 : win0_3.index t (1 : Fin 3) = (i 1).val / 512 := congrFun ht 1
  refine ⟨t, flush0_4 t, ?_⟩
  rw [mem_blk_attn]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-! ## The arrays after the run -/

/-- THE OUTPUT ARRAY after the run is the normalise-last output of the argument arrays. -/
theorem final_out (c : Dev nD) : (dats m 0 c).arrAt 3 cfg0.N
    = outputNormLast (m ((c : Thread nD τ).loc main_arg0)) (m ((c : Thread nD τ).loc main_arg1)) (m ((c : Thread nD τ).loc main_arg2)) :=
  (dats m 0 c).arrAt_eq_of_cover 3 _ (fun t _ => flushed_out m c t) cover_out

/-- THE ATTENTION ARRAY after the run is the reciprocal-arrangement weights of the argument arrays. -/
theorem final_attn (c : Dev nD) : (dats m 0 c).arrAt 4 cfg0.N
    = attnMulInv (m ((c : Thread nD τ).loc main_arg0)) (m ((c : Thread nD τ).loc main_arg1)) :=
  (dats m 0 c).arrAt_eq_of_cover 4 _ (fun t _ => flushed_attn m c t) cover_attn

/-- The kernel's run: every weakly fair execution terminates with the two result arrays at those functions of the
    arguments, and the arguments unchanged. -/
theorem run : θ_run defs (onTc (τ := τ) (main (F := Ideal))) ⟨m, fun _ => 0, ρ⟩ fun r => ∀ c : Dev nD,
      r.2.mem ((c : Thread nD τ).loc main_v0_0)
        = outputNormLast (m ((c : Thread nD τ).loc main_arg0)) (m ((c : Thread nD τ).loc main_arg1)) (m ((c : Thread nD τ).loc main_arg2))
      ∧ r.2.mem ((c : Thread nD τ).loc main_v0_1)
        = attnMulInv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_out m c), (h c).2.1.trans (final_attn m c), (h c).2.2⟩)
    (Value.run_blocks m ρ)

end Cert.KernelIdeal.Arrays

end
-- ==== Proof.RefValue.lean ====
/-
  The reference program's two results, read index by index: the attention weights are the quotient
  arrangement `numerator / denominator` of Spec.lean, and the output is the sum of `v`'s rows weighted by them.

  Stage by stage at batch `b`, query row `r`, key row `c`: the batched dot product over the 64 features divided
  by the constant 8 is the score (division by a nonzero real is multiplication by its reciprocal on every
  extended real); the maximum over the key axis from −∞, joined once more with −∞, is the row maximum; the
  exponential of the difference is the numerator; zero plus the sum over the key axis is the denominator; their
  quotient is the weight; and the second batched dot product sums the weights against `v` over the key axis.
-/
import proofs.«107630_j43327630082400_2_alg».proof.Proof.Gen.ReferenceIdeal.Read
import proofs.«107630_j43327630082400_2_alg».proof.Proof.Spec
import proofs.«107630_j43327630082400_2_alg».proof.Proof.Consts
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic
open Idealize.ShloMosaic.ValueIdx Cert.Attn Cert.Softmax

/-- The key axis of the score array is reduced to the [16, 2048] array of rows. -/
theorem keyAxis : S16x2048x2048.Reduces [2] S16x2048 := by decide

/-- Every rank-3 index is the index of its three coordinates. -/
theorem idx3_eta {n0 n1 n2 : Nat} (i : (⟨3, ![n0, n1, n2]⟩ : Shape).Idx) :
    i = ix3 (⟨(i 0).val, (i 0).isLt⟩ : Fin n0) (⟨(i 1).val, (i 1).isLt⟩ : Fin n1) (⟨(i 2).val, (i 2).isLt⟩ : Fin n2) := by
  funext a; match a with | ⟨0, _⟩ => rfl | ⟨1, _⟩ => rfl | ⟨2, _⟩ => rfl

/-! The index each stage reads, in coordinates. -/

theorem lhs_scores (b : Fin 16) (r c : Fin 2048) (k : Fin 64) : lidx_main_v0 (ix3 b r c) k = ix3 b r k :=
  funext fun a => Fin.ext (by match a with | ⟨0, _⟩ => rfl | ⟨1, _⟩ => rfl | ⟨2, _⟩ => rfl)
theorem rhs_scores (b : Fin 16) (r c : Fin 2048) (k : Fin 64) : ridx_main_v0 (ix3 b r c) k = ix3 b c k :=
  funext fun a => Fin.ext (by match a with | ⟨0, _⟩ => rfl | ⟨1, _⟩ => rfl | ⟨2, _⟩ => rfl)
theorem lift_key (b : Fin 16) (r c : Fin 2048) : keyAxis.lift (ix2 b r) c = ix3 b r c :=
  funext fun a => Fin.ext (by match a with | ⟨0, _⟩ => rfl | ⟨1, _⟩ => rfl | ⟨2, _⟩ => rfl)
theorem row_of_max (b : Fin 16) (r c : Fin 2048) : idx_main_v6 (idx_main_v7 (ix3 b r c)) = ix2 b r :=
  funext fun a => Fin.ext (by match a with | ⟨0, _⟩ => rfl | ⟨1, _⟩ => rfl)
theorem key_of_sum (b : Fin 16) (r k : Fin 2048) : idx_main_v10 (ix2 b r) k = ix3 b r k :=
  funext fun a => Fin.ext (by match a with | ⟨0, _⟩ => rfl | ⟨1, _⟩ => rfl | ⟨2, _⟩ => rfl)
theorem row_of_den (b : Fin 16) (r c : Fin 2048) : idx_main_v11 (idx_main_v12 (ix3 b r c)) = ix2 b r :=
  funext fun a => Fin.ext (by match a with | ⟨0, _⟩ => rfl | ⟨1, _⟩ => rfl)
theorem lhs_out (b : Fin 16) (r : Fin 2048) (d : Fin 64) (k : Fin 2048) : lidx_main_v14 (ix3 b r d) k = ix3 b r k :=
  funext fun a => Fin.ext (by match a with | ⟨0, _⟩ => rfl | ⟨1, _⟩ => rfl | ⟨2, _⟩ => rfl)
theorem rhs_out (b : Fin 16) (r : Fin 2048) (d : Fin 64) (k : Fin 2048) : ridx_main_v14 (ix3 b r d) k = ix3 b k d :=
  funext fun a => Fin.ext (by match a with | ⟨0, _⟩ => rfl | ⟨1, _⟩ => rfl | ⟨2, _⟩ => rfl)

variable (x0 x1 x2 : (⟨S16x2048x64, .f32⟩ : BufTy).Contents (Elt Ideal))

/-- The scaled scores: the dot product over the features divided by 8. -/
theorem scores_apply (b : Fin 16) (r c : Fin 2048) :
    val_main_v2 (F := Ideal) x0 x1 (ix3 b r c) = score x0 x1 b r c := by
  rw [val_main_v2_apply, val_main_v0_apply, val_main_v1_apply, val_main_cst_apply]
  simp only [lhs_scores, rhs_scores]
  show Ideal.div (∑ k : Fin 64, x0 (ix3 b r k) * x1 (ix3 b c k)) (Ideal.ofBits .f32 0x41000000#32) = _
  rw [Cert.Consts.ofBits_eight, Ideal.div_coe (by norm_num)]
  rfl

/-- The row maximum: the fold of `max` over the key axis from −∞, joined with −∞ once more. -/
theorem rowMax_apply (b : Fin 16) (r : Fin 2048) :
    val_main_v5 (F := Ideal) x0 x1 (ix2 b r) = rowMax (score x0 x1 b r) := by
  rw [val_main_v5_apply, val_main_v4_apply, val_main_cst_1_apply]
  unfold val_main_v3
  rw [Host.reduce_eq_fold_single FloatOps.maximumf _ _ reducesTo_S16x2048x2048_S16x2048_d2 keyAxis h_S_ (ix2 b r)]
  have hrow : (val_main_v2 (F := Ideal) x0 x1 ∘ keyAxis.lift (ix2 b r)) = score x0 x1 b r :=
    funext fun c => (congrArg (val_main_v2 (F := Ideal) x0 x1) (lift_key b r c)).trans (scores_apply x0 x1 b r c)
  rw [hrow, val_main_cst_0_apply]
  show max (Ideal.ofBits .f32 0xFF800000#32) (Finset.univ.fold max (Ideal.ofBits .f32 0xFF800000#32) (score x0 x1 b r)) = _
  rw [Cert.Consts.ofBits_neg_inf, max_eq_right bot_le]
  rfl

/-- The numerators: the exponential of the score's distance below the row maximum. -/
theorem num_apply (b : Fin 16) (r c : Fin 2048) :
    val_main_v9 (F := Ideal) x0 x1 (ix3 b r c) = num (score x0 x1 b r) c := by
  rw [val_main_v9_apply, val_main_v8_apply]
  rw [val_main_v7_apply, val_main_v6_apply, row_of_max, scores_apply, rowMax_apply]
  rfl

/-- The denominators: zero plus the sum of the row's numerators. -/
theorem den_apply (b : Fin 16) (r : Fin 2048) :
    val_main_v10 (F := Ideal) x0 x1 (ix2 b r) = den (score x0 x1 b r) := by
  rw [val_main_v10_apply, val_main_cst_2_apply]
  simp only [key_of_sum]
  show Ideal.ofBits .f32 0x00000000#32 + ∑ k : Fin 2048, val_main_v9 (F := Ideal) x0 x1 (ix3 b r k) = _
  rw [Ideal.ofBits_zero_f32, zero_add]
  exact Finset.sum_congr rfl fun k _ => num_apply x0 x1 b r k

/-- The attention weight: numerator over denominator. -/
theorem weight_apply (b : Fin 16) (r c : Fin 2048) :
    val_main_v13 (F := Ideal) x0 x1 (ix3 b r c) = weightDiv x0 x1 b r c := by
  rw [val_main_v13_apply, val_main_v12_apply, val_main_v11_apply, row_of_den, num_apply, den_apply]
  rfl

/-- The output entry: the weights against `v`'s column, summed over the key axis. -/
theorem out_apply (b : Fin 16) (r : Fin 2048) (d : Fin 64) :
    val_main_v14 (F := Ideal) x0 x1 x2 (ix3 b r d) = outWeightsFirst x0 x1 x2 b r d := by
  rw [val_main_v14_apply]
  refine Finset.sum_congr rfl fun k _ => ?_
  rw [lhs_out, rhs_out, weight_apply]
  rfl

/-- THE ATTENTION WEIGHTS the reference returns are the quotient arrangement, as one array. -/
theorem attn_eq : val_main_v13 (F := Ideal) x0 x1 = attnDiv x0 x1 :=
  funext fun i => (congrArg (val_main_v13 (F := Ideal) x0 x1) (idx3_eta i)).trans (weight_apply x0 x1 _ _ _)

/-- THE OUTPUT the reference returns is the weights-first arrangement, as one array. -/
theorem output_eq : val_main_v14 (F := Ideal) x0 x1 x2 = outputWeightsFirst x0 x1 x2 :=
  funext fun i => (congrArg (val_main_v14 (F := Ideal) x0 x1 x2) (idx3_eta i)).trans (out_apply x0 x1 x2 _ _ _)

end Cert.ReferenceIdeal.RefValue

end
-- ==== Proof.Finite.lean ====
/-
  What the precondition says of the three argument arrays: every entry is a real number.

  The predicate is the conjunction, over `q`, `k` and `v`, of "every entry's absolute value is below +∞".
  Each conjunct is an `and`-reduction of the entrywise comparisons from the constant 1, so when the predicate
  is 1 every comparison is 1; and an extended real whose absolute value `max x (−x)` is below +∞ is neither
  infinity, hence a real.
-/
import proofs.«107630_j43327630082400_2_alg».proof.Pre_finite_inputs
import proofs.«107630_j43327630082400_2_alg».proof.Proof.Consts
import Idealize.ShloMosaic.Lib.ReduceAll
import Idealize.ShloMosaic.Lib.ValueIdx

noncomputable section

namespace Cert.Finite

open Idealize.ShloMosaic Idealize.ShloMosaic.ValueIdx

/-- An extended real whose absolute value compares below the +∞ pattern is a real number. -/
theorem real_of_abs_lt_inf (x : EReal)
    (e : Ideal.cmp .olt (max x (-x)) (Ideal.ofBits .f32 0x7F800000#32) = 1#1) : ∃ r : ℝ, x = r := by
  rw [Cert.Consts.ofBits_inf] at e
  induction x using EReal.rec with
  | bot => simp [Ideal.cmp] at e
  | coe r => exact ⟨r, rfl⟩
  | top => simp [Ideal.cmp] at e

variable [Cert.Pre_finite_inputs.Facts]

/-- When the precondition's predicate is 1, every entry of each of the three arrays is a real number. -/
theorem real_of_pre (a0 a1 a2 : FVec Ideal Cert.Pre_finite_inputs.S16x2048x64 .f32)
    (h : Cert.Pre_finite_inputs.fn (F := Ideal) a0 a1 a2 = fun _ => 1#1) :
    (∀ i, ∃ x : ℝ, a0 i = x) ∧ (∀ i, ∃ x : ℝ, a1 i = x) ∧ (∀ i, ∃ x : ℝ, a2 i = x) := by
  have h0 := congrFun h ix0
  dsimp only [Cert.Pre_finite_inputs.fn] at h0
  obtain ⟨h01, h2⟩ := IntOp.andi_eq_one.1 h0
  obtain ⟨h0', h1⟩ := IntOp.andi_eq_one.1 h01
  haveI : Subsingleton Cert.Pre_finite_inputs.S_.Idx := ⟨fun a b => funext fun d => d.elim0⟩
  exact ⟨fun i => real_of_abs_lt_inf (a0 i) (Host.reduce_andi_all _ _ _ _ _ h0' i),
    fun i => real_of_abs_lt_inf (a1 i) (Host.reduce_andi_all _ _ _ _ _ h1 i),
    fun i => real_of_abs_lt_inf (a2 i) (Host.reduce_andi_all _ _ _ _ _ h2 i)⟩

end Cert.Finite

end
-- ==== Proof.lean ====
/-
  Scaled dot-product attention, `softmax(q kᵀ / 8) v` together with the attention weights, over
  `q, k, v : [16, 2048, 64]`: a tiled kernel against the plain array program, equal as extended reals whenever
  every input entry is finite.

  The kernel works one batch and one tile of 512 query rows at a time.  It scores the tile against all 2048 keys
  (a matrix product scaled by 0.125), takes each row's maximum, exponentiates the differences, sums each row, and
  writes `numerator · (1 / denominator)` as the weights and `(numerators · v) · (1 / denominator)` as the output.
  The reference divides the scores by 8, forms the same numerators and denominators, writes
  `numerator / denominator` as the weights and multiplies the weights into `v`.

  Index by index the two differ in three ways.  Multiplying by 0.125 is dividing by 8 on every extended real.
  `x · (1 / l) = x / l` holds when `l` is a nonzero real, and fails at `l = 0`.  Normalising after the sum over
  the keys equals normalising each weight before it when `1 / l` is a nonnegative real, which then distributes over
  any sum of extended reals.  Finite queries and keys make every score real, so each row attains its maximum, one
  numerator is `exp 0 = 1`, all are positive reals, and the denominator is a positive real: both conditions hold.
  Nothing is needed of `v` beyond what the sums already allow.

  The modules: LibSoftmaxRow (a row's maximum, numerators, denominator and the two laws), Spec (both results in both
  arrangements, and their equality on real queries and keys), LibColumnLayout (two index-moving layouts), KernelBlock, KernelTile and KernelArrays (what a
  grid point computes, where its tiles sit, and the two arrays after the run), RefValue (the reference's two
  results), Finite (the precondition gives real entries), Consts (the literals' values).

  No float operation was rewritten on the way to the idealized kernel, so that claim is trivial; the three frame
  claims are the generated runs.
-/
import proofs.«107630_j43327630082400_2_alg».proof.Defs
import proofs.«107630_j43327630082400_2_alg».proof.Proof.Gen.Kernel
import proofs.«107630_j43327630082400_2_alg».proof.Proof.Gen.Kernel.Skeleton
import proofs.«107630_j43327630082400_2_alg».proof.Proof.Gen.Kernel.Launch
import proofs.«107630_j43327630082400_2_alg».proof.Proof.Gen.Kernel.Points
import proofs.«107630_j43327630082400_2_alg».proof.Proof.Gen.Kernel.Frame
import proofs.«107630_j43327630082400_2_alg».proof.Proof.Gen.KernelIdeal
import proofs.«107630_j43327630082400_2_alg».proof.Proof.Gen.KernelIdeal.Skeleton
import proofs.«107630_j43327630082400_2_alg».proof.Proof.Gen.KernelIdeal.Launch
import proofs.«107630_j43327630082400_2_alg».proof.Proof.Gen.KernelIdeal.Points
import proofs.«107630_j43327630082400_2_alg».proof.Proof.Gen.KernelIdeal.Frame
import proofs.«107630_j43327630082400_2_alg».proof.Proof.Gen.ReferenceIdeal
import proofs.«107630_j43327630082400_2_alg».proof.Proof.Gen.KernelIdeal.Value
import proofs.«107630_j43327630082400_2_alg».proof.Proof.Gen.ReferenceIdeal.Run
import proofs.«107630_j43327630082400_2_alg».proof.Proof.Gen.ReferenceIdeal.Read
import proofs.«107630_j43327630082400_2_alg».proof.Proof.Gen.Pre_finite_inputs
import proofs.«107630_j43327630082400_2_alg».proof.Proof.KernelArrays
import proofs.«107630_j43327630082400_2_alg».proof.Proof.RefValue
import proofs.«107630_j43327630082400_2_alg».proof.Proof.Finite
import Idealize.ShloMosaic.Adequacy
import Idealize.ShloMosaic.Init

noncomputable section

namespace Cert.Proof

open Idealize.ShloMosaic Idealize.ShloMosaic.TcCoe Idealize.SL.Sem Cert.Attn

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On finite inputs the kernel's output and weights (normalise last, multiply by the reciprocal) are the
    reference's (weights first, divide): the kernel's arrays after its run, the reference's results read index by
    index, and the two row laws on real scores. -/
theorem algebraic : Cert.algebraic_KernelIdeal_ReferenceIdeal := by
  intro m ρ m' ρ' hpre hagree
  refine ⟨fun c => outputNormLast (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => attnMulInv (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hq, hk, -⟩ := Cert.Finite.real_of_pre _ _ _ (hpre c)
    rw [(hagree c).1, (hagree c).2.1, (hagree c).2.2, Cert.ReferenceIdeal.Read.val_main_v14_eq,
      Cert.ReferenceIdeal.RefValue.output_eq]
    exact (outputNormLast_eq_outputWeightsFirst hq hk _).symm
  · obtain ⟨hq, hk, -⟩ := Cert.Finite.real_of_pre _ _ _ (hpre c)
    rw [(hagree c).1, (hagree c).2.1, Cert.ReferenceIdeal.Read.val_main_v13_eq,
      Cert.ReferenceIdeal.RefValue.attn_eq]
    exact (attnMulInv_eq_attnDiv hq hk).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
